-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S160000 : Shape := ⟨1, ![160000]⟩
abbrev S512x512 : Shape := ⟨2, ![512, 512]⟩
abbrev S512 : Shape := ⟨1, ![512]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S160000 : S_.BroadcastsInDim S160000 (![] : Fin 0 → Fin S160000.rank)
  reducesTo_S160000_S_d0 : S160000.ReducesTo [0] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  main_v18

def fn {F : FTy → Type} [FloatOps F] (main_arg0 : FVec F S50000x512 .f32) (main_arg1 : IVec S160000 32) (main_arg2 : IVec S160000 32) (main_arg3 : FVec F S160000 .f32) (main_arg4 : FVec F S512x512 .f32) (main_arg5 : FVec F S512 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S160000 .f32 := Host.absf main_arg3
  let main_cst_0 : FVec F S_ .f32 := constant S_ .f32 0x7F800000#32
  let main_v5 : FVec F S160000 .f32 := broadcastInDim S160000 ![] bcast_S_S160000 main_cst_0
  let main_v6 : IVec S160000 1 := cmpf .olt main_v4 main_v5
  let main_c_1 : IVec S_ 1 := constantI S_ 1 1#1
  let main_v7 : IVec S_ 1 := (fun x v => Host.reduce IntOp.andi x v reducesTo_S160000_S_d0 h_S_) main_v6 main_c_1
  let main_v8 : IVec S_ 1 := andi main_v3 main_v7
  let main_v9 : FVec F S512x512 .f32 := Host.absf main_arg4
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg5
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_v13 main_v16
-- ==== Kernel.lean ====
abbrev S50000x512 : Shape := ⟨2, ![50000, 512]⟩
abbrev S160000 : Shape := ⟨1, ![160000]⟩
abbrev S512x512 : Shape := ⟨2, ![512, 512]⟩
abbrev S512 : Shape := ⟨1, ![512]⟩
abbrev S160000x1 : Shape := ⟨2, ![160000, 1]⟩
abbrev S_ : Shape := ⟨0, ![]⟩
abbrev S160000x512 : Shape := ⟨2, ![160000, 512]⟩
abbrev S1x512 : Shape := ⟨2, ![1, 512]⟩
abbrev S2000x512 : Shape := ⟨2, ![2000, 512]⟩

abbrev nBuf : Space → Nat
  | .hbm => 25
  | .vmem => 6
  | .smem => 0
  | _ => 0

abbrev bufTy : (tb : Table) → Fin (tcTables nBuf tb) → BufTy
  | .hbm, ⟨0, _⟩ => ⟨S50000x512, .f32⟩
  | .hbm, ⟨1, _⟩ => ⟨S160000, .i32⟩
  | .hbm, ⟨2, _⟩ => ⟨S160000, .i32⟩
  | .hbm, ⟨3, _⟩ => ⟨S160000, .f32⟩
  | .hbm, ⟨4, _⟩ => ⟨S512x512, .f32⟩
  | .hbm, ⟨5, _⟩ => ⟨S512, .f32⟩
  | .hbm, ⟨6, _⟩ => ⟨S160000x1, .f32⟩
  | .hbm, ⟨7, _⟩ => ⟨S_, .i32⟩
  | .hbm, ⟨8, _⟩ => ⟨S160000, .i32⟩
  | .hbm, ⟨9, _⟩ => ⟨S160000, .i1⟩
  | .hbm, ⟨10, _⟩ => ⟨S_, .i32⟩
  | .hbm, ⟨11, _⟩ => ⟨S160000, .i32⟩
  | .hbm, ⟨12, _⟩ => ⟨S160000, .i32⟩
  | .hbm, ⟨13, _⟩ => ⟨S160000, .i32⟩
  | .hbm, ⟨14, _⟩ => ⟨S160000x1, .i32⟩
  | .hbm, ⟨15, _⟩ => ⟨S160000x512, .f32⟩
  | .hbm, ⟨16, _⟩ => ⟨S160000x512, .f32⟩
  | .hbm, ⟨17, _⟩ => ⟨S160000x512, .f32⟩
  | .hbm, ⟨18, _⟩ => ⟨S_, .f32⟩
  | .hbm, ⟨19, _⟩ => ⟨S50000x512, .f32⟩
  | .hbm, ⟨20, _⟩ => ⟨S160000x1, .i32⟩
  | .hbm, ⟨21, _⟩ => ⟨S50000x512, .f32⟩
  | .hbm, ⟨22, _⟩ => ⟨S512x512, .bf16⟩
  | .hbm, ⟨23, _⟩ => ⟨S1x512, .f32⟩
  | .hbm, ⟨24, _⟩ => ⟨S50000x512, .f32⟩
  | .local _ .vmem, ⟨0, _⟩ => ⟨S2000x512, .f32⟩
  | .local _ .vmem, ⟨1, _⟩ => ⟨S2000x512, .f32⟩
  | .local _ .vmem, ⟨2, _⟩ => ⟨S512x512, .bf16⟩
  | .local _ .vmem, ⟨3, _⟩ => ⟨S1x512, .f32⟩
  | .local _ .vmem, ⟨4, _⟩ => ⟨S2000x512, .f32⟩
  | .local _ .vmem, ⟨5, _⟩ => ⟨S2000x512, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S160000_S160000x1_0 : S160000.BroadcastsInDim S160000x1 (![0] : Fin 1 → Fin S160000x1.rank)
  bcast_S_S160000 : S_.BroadcastsInDim S160000 (![] : Fin 0 → Fin S160000.rank)
  bcast_S160000x1_S160000x512_0_1 : S160000x1.BroadcastsInDim S160000x512 (![0, 1] : Fin 2 → Fin S160000x512.rank)
  bcast_S_S50000x512 : S_.BroadcastsInDim S50000x512 (![] : Fin 0 → Fin S50000x512.rank)
  bitsLt_bf16_f32 : FTy.bits .bf16 < FTy.bits .f32
  shapeCasts_S512_S1x512 : S512.ShapeCasts S1x512
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  gather_S50000x512_S160000x1_S160000x512_1_0_n_n_0_1_1512_wf : GatherDims.WF S50000x512 S160000x1 S160000x512 [1] [0] [] [0] [] 1 ![1, 512]
  scatter_S50000x512_S160000x1_S160000x512_1_0_0_1_wf : ScatterDims.WF S50000x512 S160000x1 S160000x512 [1] [0] [0] 1
  dot_S2000x512_S512x512_S2000x512_1_0_0_1_n_n_wf : DotDims.WF S2000x512 S512x512 S2000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x512.size a ≤ S50000x512.size a
  hwx0_3 : ∀ i : grid0.Coords, EltTy.bits .f32 = 32 ∨ (Rect.block (s := S50000x512) S2000x512.size (cc0_transform_3 i) (hinb0_3 i)).WholeWords (EltTy.packing .f32)

variable [Facts₀]

def gather_S50000x512_S160000x1_S160000x512_1_0_n_n_0_1_1512 : GatherDims S50000x512 S160000x1 S160000x512 where
  offsetDims := [1]
  collapsedSliceDims := [0]
  operandBatchingDims := []
  startIndicesBatchingDims := []
  startIndexMap := [0]
  indexVectorDim := 1
  sliceSizes := ![1, 512]
  wf := gather_S50000x512_S160000x1_S160000x512_1_0_n_n_0_1_1512_wf
def scatter_S50000x512_S160000x1_S160000x512_1_0_0_1 : ScatterDims S50000x512 S160000x1 S160000x512 where
  updateWindowDims := [1]
  insertedWindowDims := [0]
  scatterDimsToOperandDims := [0]
  indexVectorDim := 1
  wf := scatter_S50000x512_S160000x1_S160000x512_1_0_0_1_wf
def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf

abbrev win0_0 : Pipeline.Window sig grid0 :=
  Pipeline.Window.ofSpec (Memref.whole main_v12) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S2000x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x512 : Shape := ⟨2, ![50000, 512]⟩
abbrev S160000 : Shape := ⟨1, ![160000]⟩
abbrev S512x512 : Shape := ⟨2, ![512, 512]⟩
abbrev S512 : Shape := ⟨1, ![512]⟩
abbrev S160000x1 : Shape := ⟨2, ![160000, 1]⟩
abbrev S_ : Shape := ⟨0, ![]⟩
abbrev S160000x512 : Shape := ⟨2, ![160000, 512]⟩
abbrev S1x512 : Shape := ⟨2, ![1, 512]⟩

abbrev nBuf : Space → Nat
  | .hbm => 29
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S160000, .i32⟩
  | .hbm, ⟨2, _⟩ => ⟨S160000, .i32⟩
  | .hbm, ⟨3, _⟩ => ⟨S160000, .f32⟩
  | .hbm, ⟨4, _⟩ => ⟨S512x512, .f32⟩
  | .hbm, ⟨5, _⟩ => ⟨S512, .f32⟩
  | .hbm, ⟨6, _⟩ => ⟨S160000x1, .f32⟩
  | .hbm, ⟨7, _⟩ => ⟨S_, .i32⟩
  | .hbm, ⟨8, _⟩ => ⟨S160000, .i32⟩
  | .hbm, ⟨9, _⟩ => ⟨S160000, .i1⟩
  | .hbm, ⟨10, _⟩ => ⟨S_, .i32⟩
  | .hbm, ⟨11, _⟩ => ⟨S160000, .i32⟩
  | .hbm, ⟨12, _⟩ => ⟨S160000, .i32⟩
  | .hbm, ⟨13, _⟩ => ⟨S160000, .i32⟩
  | .hbm, ⟨14, _⟩ => ⟨S160000x1, .i32⟩
  | .hbm, ⟨15, _⟩ => ⟨S160000x512, .f32⟩
  | .hbm, ⟨16, _⟩ => ⟨S160000x512, .f32⟩
  | .hbm, ⟨17, _⟩ => ⟨S160000x512, .f32⟩
  | .hbm, ⟨18, _⟩ => ⟨S_, .f32⟩
  | .hbm, ⟨19, _⟩ => ⟨S50000x512, .f32⟩
  | .hbm, ⟨20, _⟩ => ⟨S160000x1, .i32⟩
  | .hbm, ⟨21, _⟩ => ⟨S50000x512, .f32⟩
  | .hbm, ⟨22, _⟩ => ⟨S50000x512, .f32⟩
  | .hbm, ⟨23, _⟩ => ⟨S1x512, .f32⟩
  | .hbm, ⟨24, _⟩ => ⟨S50000x512, .f32⟩
  | .hbm, ⟨25, _⟩ => ⟨S50000x512, .f32⟩
  | .hbm, ⟨26, _⟩ => ⟨S_, .f32⟩
  | .hbm, ⟨27, _⟩ => ⟨S50000x512, .f32⟩
  | .hbm, ⟨28, _⟩ => ⟨S50000x512, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩

abbrev nD : Nat := 1
abbrev τ : Topo := Topo.v7x

variable {F : FTy → Type} [FloatOps F]

class Facts₀ : Prop where
  bcast_S160000_S160000x1_0 : S160000.BroadcastsInDim S160000x1 (![0] : Fin 1 → Fin S160000x1.rank)
  bcast_S_S160000 : S_.BroadcastsInDim S160000 (![] : Fin 0 → Fin S160000.rank)
  bcast_S160000x1_S160000x512_0_1 : S160000x1.BroadcastsInDim S160000x512 (![0, 1] : Fin 2 → Fin S160000x512.rank)
  bcast_S_S50000x512 : S_.BroadcastsInDim S50000x512 (![] : Fin 0 → Fin S50000x512.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  gather_S50000x512_S160000x1_S160000x512_1_0_n_n_0_1_1512_wf : GatherDims.WF S50000x512 S160000x1 S160000x512 [1] [0] [] [0] [] 1 ![1, 512]
  scatter_S50000x512_S160000x1_S160000x512_1_0_0_1_wf : ScatterDims.WF S50000x512 S160000x1 S160000x512 [1] [0] [0] 1
  dot_S50000x512_S512x512_S50000x512_1_0_0_1_n_n_wf : DotDims.WF S50000x512 S512x512 S50000x512 [1] [0] [0] [1] [] []

variable [Facts₀]

def gather_S50000x512_S160000x1_S160000x512_1_0_n_n_0_1_1512 : GatherDims S50000x512 S160000x1 S160000x512 where
  offsetDims := [1]
  collapsedSliceDims := [0]
  operandBatchingDims := []
  startIndicesBatchingDims := []
  startIndexMap := [0]
  indexVectorDim := 1
  sliceSizes := ![1, 512]
  wf := gather_S50000x512_S160000x1_S160000x512_1_0_n_n_0_1_1512_wf
def scatter_S50000x512_S160000x1_S160000x512_1_0_0_1 : ScatterDims S50000x512 S160000x1 S160000x512 where
  updateWindowDims := [1]
  insertedWindowDims := [0]
  scatterDimsToOperandDims := [0]
  indexVectorDim := 1
  wf := scatter_S50000x512_S160000x1_S160000x512_1_0_0_1_wf
def dot_S50000x512_S512x512_S50000x512_1_0_0_1_n_n : DotDims S50000x512 S512x512 S50000x512 where
  lhsContracting := [1]
  rhsContracting := [0]
  lhsNonContracting := [0]
  rhsNonContracting := [1]
  lhsBatch := []
  rhsBatch := []
  wf := dot_S50000x512_S512x512_S50000x512_1_0_0_1_n_n_wf

class Facts : Prop extends Facts₀ where

variable [Facts]
-- ==== Proof.LibRowMax.lean ====
/-
  Reading a "subtract the column maximum" expression over a matrix at an index given by its coordinates, for any
  extents a × b.

  * The index over the column coordinate `q` with row coordinate `k` inserted on the first axis is `(k, q)`; hence, on
    the extended reals, a vector maximum along the FIRST axis of an `[a, b]` matrix is the fold of `max` over the row
    coordinate, and the host's maximum along the first axis is the same fold from its initial value; the vector maxima
    kept as a row `[1, b]` and broadcast down the rows again read the column's maximum at every row.
  * The host's keepdims forms: a `[b]` vector placed as the one row of `[1, b]`, that row broadcast down `a` rows, and
    a column `[a, 1]` broadcast across `b` columns.
  * A plain matrix product `[a, k] × [k, b] → [a, b]` (the left operand's last axis contracted with the right
    operand's first): its sum over the contraction index is the sum over `e : Fin k` of `lhs (i, e) * rhs (e, j)`, for
    the vector unit's product into a zero accumulator and for the host's.
-/
import Idealize.ShloMosaic.Lib.ValueLayout
import Idealize.ShloMosaic.Lib.Pipeline.Value
import Idealize.ShloMosaic.PureOps.Ideal.Laws

noncomputable section

namespace Cert.LibRowMax

open Idealize.ShloMosaic Idealize.ShloMosaic.ValueIdx

variable {α : Type} {a b : ℕ}

/-! ## The maximum along the first axis -/

/-- Over the column coordinate `q`, with `k` inserted on the first axis: `(k, q)`. -/
theorem lift_first (h : (⟨2, ![a, b]⟩ : Shape).Reduces [0] ⟨1, ![b]⟩) (q : Fin b) (k : Fin a) :
    h.lift (ix1 q) k = ix2 k q := by
  funext ax
  apply Fin.ext
  match ax with
  | ⟨0, _⟩ => rfl
  | ⟨1, _⟩ => rfl

variable {φ : FTy}

/-- A vector maximum along the first axis, at column `q`: the fold of `max` from the accumulator's value over the rows. -/
theorem multiReduction_max_first (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (q : Fin b) :
    multiReduction .maximumf [0] ⟨1, ![b]⟩ src acc h hφ hacc (ix1 q)
      = (Finset.univ : Finset (Fin a)).fold max (Ideal.ofBits φ acc) fun k => src (ix2 k q) := by
  refine (Ideal.multiReduction_maximumf_single src acc h hφ hacc (ix1 q)).trans ?_
  refine congrArg (Finset.fold max (Ideal.ofBits φ acc) · Finset.univ) (funext fun k => ?_)
  exact congrArg src (lift_first h q k)

/-- The host's maximum along the first axis, at column `q`: the fold of `max` from the initial value over the rows. -/
theorem hostReduce_max_first {u : Shape} (x : (⟨2, ![a, b]⟩ : Shape).Idx → Ideal φ) (init : u.Idx → Ideal φ)
    (h' : (⟨2, ![a, b]⟩ : Shape).ReducesTo [0] ⟨1, ![b]⟩) (h : (⟨2, ![a, b]⟩ : Shape).Reduces [0] ⟨1, ![b]⟩)
    (hu : 0 < u.numel) (q : Fin b) :
    Host.reduce (FloatOps.maximumf (F := Ideal) (φ := φ)) x init h' hu (ix1 q)
      = (Finset.univ : Finset (Fin a)).fold max (init (Shape.Idx.first hu)) fun k => x (ix2 k q) := by
  refine (Host.reduce_eq_fold_single (FloatOps.maximumf (F := Ideal) (φ := φ)) x init h' h hu (ix1 q)).trans ?_
  refine congrArg (Finset.fold max (init (Shape.Idx.first hu)) · Finset.univ) (funext fun k => ?_)
  exact congrArg x (lift_first h q k)

/-- The column maxima kept as one row `[1, b]` and broadcast down `a` rows again read, at `(p, q)`, the maximum of
    column `q`. -/
theorem colMax_broadcastTo_apply (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (hc : (⟨1, ![b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ (multiReduction .maximumf [0] ⟨1, ![b]⟩ src acc h hφ hacc) hc) hb (ix2 p q)
      = (Finset.univ : Finset (Fin a)).fold max (Ideal.ofBits φ acc) fun k => src (ix2 k q) :=
  (broadcastTo_1b_ab_apply _ hb p q).trans
    ((shapeCast_a_1a_apply _ hc (0 : Fin 1) q).trans (multiReduction_max_first src acc h hφ hacc q))

/-! ## The host's keepdims forms -/

/-- A `[b]` vector placed as the row of `[1, b]` reads, at `(u, q)`, the vector at `q`. -/
theorem broadcastInDim_b_1b_apply (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A `[1, b]` row broadcast down `a` rows reads, at `(p, q)`, the row at `q`. -/
theorem broadcastInDim_1b_ab_apply (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show 0 = if (1 : ℕ) = 1 then 0 else p.val
    rw [if_pos rfl]
  | ⟨1, _⟩ =>
    show q.val = if b = 1 then 0 else q.val
    split
    · have := q.isLt; omega
    · rfl

/-- An `[a, 1]` column broadcast across `b` columns reads, at `(p, q)`, the column's entry in row `p`. -/
theorem broadcastInDim_a1_ab_apply (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply _ h v (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

/-! ## A plain matrix product -/

variable {k : ℕ}

/-- The dimension numbers of a plain product `[a, k] × [k, b] → [a, b]`: no batch axis, the left operand's last axis
    contracted with the right operand's first. -/
abbrev plainDims (a k b : ℕ)
    (wf : DotDims.WF ⟨2, ![a, k]⟩ ⟨2, ![k, b]⟩ ⟨2, ![a, b]⟩ [1] [0] [0] [1] [] []) :
    DotDims ⟨2, ![a, k]⟩ ⟨2, ![k, b]⟩ ⟨2, ![a, b]⟩ where
  lhsContracting := [1]
  rhsContracting := [0]
  lhsNonContracting := [0]
  rhsNonContracting := [1]
  lhsBatch := []
  rhsBatch := []
  wf := wf

/-- The left operand's index at output `(i, j)` and contraction coordinate `e` is `(i, e)`. -/
theorem plain_lhsIdx (wf : DotDims.WF ⟨2, ![a, k]⟩ ⟨2, ![k, b]⟩ ⟨2, ![a, b]⟩ [1] [0] [0] [1] [] [])
    (i : Fin a) (j : Fin b) (e : Fin k) :
    (plainDims a k b wf).lhsIdx (ix2 i j) ((contrEquiv1 (plainDims a k b wf) k rfl rfl).symm e) = ix2 i e := by
  funext ax
  apply Fin.ext
  match ax with
  | ⟨0, _⟩ => rfl
  | ⟨1, _⟩ =>
    exact ((plainDims a k b wf).lhsIdx_val_of_single rfl (ix2 i j) _).trans
      (contrEquiv1_symm_val (plainDims a k b wf) k rfl rfl e)

/-- The right operand's index at output `(i, j)` and contraction coordinate `e` is `(e, j)`. -/
theorem plain_rhsIdx (wf : DotDims.WF ⟨2, ![a, k]⟩ ⟨2, ![k, b]⟩ ⟨2, ![a, b]⟩ [1] [0] [0] [1] [] [])
    (i : Fin a) (j : Fin b) (e : Fin k) :
    (plainDims a k b wf).rhsIdx (ix2 i j) ((contrEquiv1 (plainDims a k b wf) k rfl rfl).symm e) = ix2 e j := by
  funext ax
  apply Fin.ext
  match ax with
  | ⟨0, _⟩ =>
    exact ((plainDims a k b wf).rhsIdx_val_of_single rfl (ix2 i j) _).trans
      (contrEquiv1_symm_val (plainDims a k b wf) k rfl rfl e)
  | ⟨1, _⟩ => rfl

/-- The contraction's sum of products, over the contracted coordinate. -/
theorem plain_sum (wf : DotDims.WF ⟨2, ![a, k]⟩ ⟨2, ![k, b]⟩ ⟨2, ![a, b]⟩ [1] [0] [0] [1] [] [])
    (lhs : (⟨2, ![a, k]⟩ : Shape).Idx → EReal) (rhs : (⟨2, ![k, b]⟩ : Shape).Idx → EReal) (i : Fin a) (j : Fin b) :
    ∑ kk : (plainDims a k b wf).contr.Idx,
        lhs ((plainDims a k b wf).lhsIdx (ix2 i j) kk) * rhs ((plainDims a k b wf).rhsIdx (ix2 i j) kk)
      = ∑ e : Fin k, lhs (ix2 i e) * rhs (ix2 e j) := by
  rw [← Equiv.sum_comp (contrEquiv1 (plainDims a k b wf) k rfl rfl).symm]
  refine Finset.sum_congr rfl fun e _ => ?_
  rw [plain_lhsIdx wf i j e, plain_rhsIdx wf i j e]

/-- The vector unit's plain product into a zero accumulator, at `(i, j)`: the sum over `e` of `lhs (i, e) * rhs (e, j)`. -/
theorem matmul_plain_apply {φ₁ φ₂ : FTy} (wf : DotDims.WF ⟨2, ![a, k]⟩ ⟨2, ![k, b]⟩ ⟨2, ![a, b]⟩ [1] [0] [0] [1] [] [])
    (prec : Option ContractPrecision) (lhs : FVec Ideal ⟨2, ![a, k]⟩ φ₁) (rhs : FVec Ideal ⟨2, ![k, b]⟩ φ₂)
    (i : Fin a) (j : Fin b) :
    FloatOps.matmul (plainDims a k b wf) prec lhs rhs (constant ⟨2, ![a, b]⟩ .f32 0x00000000#32) (ix2 i j)
      = ∑ e : Fin k, lhs (ix2 i e) * rhs (ix2 e j) :=
  (Ideal.matmul_constant_zero_apply (plainDims a k b wf) prec lhs rhs (ix2 i j)).trans (plain_sum wf lhs rhs i j)

/-- The host's plain product, at `(i, j)`: the same sum. -/
theorem dotGeneral_plain_apply {φ₁ φ₂ : FTy} (wf : DotDims.WF ⟨2, ![a, k]⟩ ⟨2, ![k, b]⟩ ⟨2, ![a, b]⟩ [1] [0] [0] [1] [] [])
    (prec : Option ContractPrecision) (sched : HostSchedule) (lhs : FVec Ideal ⟨2, ![a, k]⟩ φ₁)
    (rhs : FVec Ideal ⟨2, ![k, b]⟩ φ₂) (i : Fin a) (j : Fin b) :
    FloatOps.dotGeneral (plainDims a k b wf) prec sched lhs rhs (ix2 i j)
      = ∑ e : Fin k, lhs (ix2 i e) * rhs (ix2 e j) :=
  (Ideal.dotGeneral_apply (plainDims a k b wf) prec sched lhs rhs (ix2 i j)).trans (plain_sum wf lhs rhs i j)

end Cert.LibRowMax

end
-- ==== Proof.LibDense.lean ====
/-
  An affine layer followed by a clamp at zero, read at an entry given by its coordinates, for any extents:
  `max (Σ_e x_{p e} · W_{e q} + β_q) 0`, on the extended reals, in the two spellings programs print.

  * The vector unit's: a plain product `[a, k] × [k, b]` into a zero accumulator, plus a `[1, b]` row broadcast down the
    rows, then the maximum with a splat of the zero word (`vector_dense_apply`).
  * The host's: a plain `dot_general`, plus a `[b]` vector placed as a row and broadcast down the rows, then the
    maximum with the zero word broadcast from a scalar (`host_dense_apply`).
  Neither needs any finiteness: nothing is rearranged.
-/
import proofs.«111110_j49108656062933_1_alg».proof.Proof.LibRowMax
import Idealize.ShloMosaic.Lib.ValueLayout
import Idealize.ShloMosaic.Lib.Pipeline.Value
import Idealize.ShloMosaic.PureOps.Ideal.Laws

noncomputable section

namespace Cert.LibDense

open Idealize.ShloMosaic Idealize.ShloMosaic.ValueIdx Cert.LibRowMax

variable {a k b : ℕ} {φ₁ φ₂ : FTy}

/-- The vector unit's affine layer with clamp, at `(p, q)`. The weight matrix and the bias row come through identity
    casts, as a kernel body loads them. -/
theorem vector_dense_apply (D : DotDims ⟨2, ![a, k]⟩ ⟨2, ![k, b]⟩ ⟨2, ![a, b]⟩)
    (wf : DotDims.WF ⟨2, ![a, k]⟩ ⟨2, ![k, b]⟩ ⟨2, ![a, b]⟩ [1] [0] [0] [1] [] []) (hD : D = plainDims a k b wf)
    (x : FVec Ideal ⟨2, ![a, k]⟩ φ₁) (W : FVec Ideal ⟨2, ![k, b]⟩ φ₂) (β : FVec Ideal ⟨2, ![1, b]⟩ .f32)
    (hW : (⟨2, ![k, b]⟩ : Shape).ShapeCasts ⟨2, ![k, b]⟩) (hβ : (⟨2, ![1, b]⟩ : Shape).ShapeCasts ⟨2, ![1, b]⟩)
    (hbc : (⟨2, ![1, b]⟩ : Shape).Broadcasts ⟨2, ![a, b]⟩) (p : Fin a) (q : Fin b) :
    maximumf (addf (matmul D none x (shapeCast ⟨2, ![k, b]⟩ W hW) (constant ⟨2, ![a, b]⟩ .f32 0x00000000#32))
        (broadcastTo ⟨2, ![a, b]⟩ (shapeCast ⟨2, ![1, b]⟩ β hβ) hbc))
      (broadcast ⟨2, ![a, b]⟩ (Scalar.ofBits (F := Ideal) .f32 0x00000000#32)) (ix2 p q)
    = max (∑ e : Fin k, x (ix2 p e) * W (ix2 e q) + β (ix2 (0 : Fin 1) q)) (Ideal.ofBits .f32 0x00000000#32) := by
  subst hD
  rw [shapeCast_self, shapeCast_self]
  show max (FloatOps.matmul (plainDims a k b wf) none x W (constant ⟨2, ![a, b]⟩ .f32 0x00000000#32) (ix2 p q)
      + broadcastTo ⟨2, ![a, b]⟩ β hbc (ix2 p q)) (Ideal.ofBits .f32 0x00000000#32) = _
  rw [matmul_plain_apply wf none x W p q, broadcastTo_1b_ab_apply β hbc p q]

/-- The host's affine layer with clamp, at `(p, q)`. -/
theorem host_dense_apply (D : DotDims ⟨2, ![a, k]⟩ ⟨2, ![k, b]⟩ ⟨2, ![a, b]⟩)
    (wf : DotDims.WF ⟨2, ![a, k]⟩ ⟨2, ![k, b]⟩ ⟨2, ![a, b]⟩ [1] [0] [0] [1] [] []) (hD : D = plainDims a k b wf)
    (x : FVec Ideal ⟨2, ![a, k]⟩ φ₁) (W : FVec Ideal ⟨2, ![k, b]⟩ φ₂) (β : FVec Ideal ⟨1, ![b]⟩ .f32)
    (h1 : (⟨1, ![b]⟩ : Shape).BroadcastsInDim ⟨2, ![1, b]⟩ ![1])
    (h2 : (⟨2, ![1, b]⟩ : Shape).BroadcastsInDim ⟨2, ![a, b]⟩ ![0, 1])
    (h0 : (⟨0, ![]⟩ : Shape).BroadcastsInDim ⟨2, ![a, b]⟩ ![]) (p : Fin a) (q : Fin b) :
    maximumf (addf (Host.dotGeneral D none x W)
        (broadcastInDim ⟨2, ![a, b]⟩ ![0, 1] h2 (broadcastInDim ⟨2, ![1, b]⟩ ![1] h1 β)))
      (broadcastInDim ⟨2, ![a, b]⟩ ![] h0 (constant (F := Ideal) ⟨0, ![]⟩ .f32 0x00000000#32)) (ix2 p q)
    = max (∑ e : Fin k, x (ix2 p e) * W (ix2 e q) + β (ix1 q)) (Ideal.ofBits .f32 0x00000000#32) := by
  subst hD
  have hz : broadcastInDim ⟨2, ![a, b]⟩ ![] h0 (constant (F := Ideal) ⟨0, ![]⟩ .f32 0x00000000#32) (ix2 p q)
      = Ideal.ofBits .f32 0x00000000#32 :=
    broadcastInDim_apply _ h0 _ (ix2 p q) ix0 (fun ax => ax.elim0)
  show max (FloatOps.dotGeneral (plainDims a k b wf) none _ x W (ix2 p q)
      + broadcastInDim ⟨2, ![a, b]⟩ ![0, 1] h2 (broadcastInDim ⟨2, ![1, b]⟩ ![1] h1 β) (ix2 p q))
      (broadcastInDim ⟨2, ![a, b]⟩ ![] h0 (constant (F := Ideal) ⟨0, ![]⟩ .f32 0x00000000#32) (ix2 p q)) = _
  rw [hz, dotGeneral_plain_apply wf none _ x W p q, broadcastInDim_1b_ab_apply _ h2 p q,
    broadcastInDim_b_1b_apply β h1 (0 : Fin 1) q]

end Cert.LibDense

end
-- ==== Proof.Layer.lean ====
/-
  One dense graph layer, after the neighbours' features have been aggregated, as ONE function of three arrays.

  For a node `i₀` (of 50000) and an output feature `i₁` (of 512) the layer's entry is

      max (Σ_e agg (i₀, e) · W (e, i₁) + β i₁) 0

  on the extended reals: the node's aggregated feature row contracted with column `i₁` of the weight matrix, the
  bias of that output feature added, and the sum clamped at zero. Nothing in it is rearranged, so it is the same
  number whether the contraction is carried out for the whole array at once or for 2000 nodes at a time, and it needs
  no finiteness of its arguments.
-/
import Idealize.ShloMosaic.Lib.ValueIdx
import Idealize.ShloMosaic.PureOps.Ideal

noncomputable section

namespace Cert.GraphLayer

open Idealize.ShloMosaic Idealize.ShloMosaic.ValueIdx

/-- Node-by-feature arrays: 50000 nodes, 512 features. -/
abbrev NodeFeat : Shape := ⟨2, ![50000, 512]⟩
/-- The weight matrix: input feature by output feature. -/
abbrev Weight : Shape := ⟨2, ![512, 512]⟩
/-- The bias vector: one entry per output feature. -/
abbrev BiasVec : Shape := ⟨1, ![512]⟩

/-- The layer: at node `i 0` and output feature `i 1`, the aggregated row times the weight column, plus the bias,
    clamped at zero. The zero is kept as the float word both programs print. -/
def layer (agg : NodeFeat.Idx → EReal) (W : Weight.Idx → EReal) (β : BiasVec.Idx → EReal) : NodeFeat.Idx → EReal :=
  fun i => max (∑ e : Fin 512, agg (ix2 (i 0) e) * W (ix2 e (i 1)) + β (ix1 (i 1))) (Ideal.ofBits .f32 0x00000000#32)

/-- The layer at an entry given by its coordinates. -/
theorem layer_apply (agg : NodeFeat.Idx → EReal) (W : Weight.Idx → EReal) (β : BiasVec.Idx → EReal)
    (p : Fin 50000) (q : Fin 512) :
    layer agg W β (ix2 p q)
      = max (∑ e : Fin 512, agg (ix2 p e) * W (ix2 e q) + β (ix1 q)) (Ideal.ofBits .f32 0x00000000#32) := rfl

end Cert.GraphLayer

end
-- ==== Proof.ReferenceLayer.lean ====
/-
  The reference's closing operations are the layer.

  After it has aggregated the neighbours' features, the reference multiplies the whole aggregate by the weight
  matrix in one product, adds the bias vector (placed as a row and repeated down the 50000 nodes) and takes the
  maximum with zero (a scalar zero repeated over the array). Entry by entry that is
  `max (Σ_e agg (p, e) · W (e, q) + β q) 0`: the layer of `Layer.lean`, for ANY aggregate.
-/
import proofs.«111110_j49108656062933_1_alg».proof.Proof.Gen.ReferenceIdeal.Run
import proofs.«111110_j49108656062933_1_alg».proof.Proof.LibDense
import proofs.«111110_j49108656062933_1_alg».proof.Proof.Layer

noncomputable section

namespace Cert.GraphLayer.Reference

open Cert.ReferenceIdeal Cert.ReferenceIdeal.Gen Idealize.ShloMosaic Idealize.ShloMosaic.ValueIdx Cert.GraphLayer

/-- The reference's product record is the plain product of a [50000, 512] by a [512, 512] matrix: the left
    operand's last axis against the right operand's first, no batch axis. -/
theorem product_plain :
    dot_S50000x512_S512x512_S50000x512_1_0_0_1_n_n
      = Cert.LibRowMax.plainDims 50000 512 512 dot_S50000x512_S512x512_S50000x512_1_0_0_1_n_n_wf := rfl

/-- Whole product, bias row repeated down the nodes, maximum with a repeated zero: the layer, whatever the
    aggregate, the weights and the bias are. -/
theorem closing_ops_eq_layer (agg : FVec Ideal S50000x512 .f32) (W : FVec Ideal S512x512 .f32) (β : FVec Ideal S512 .f32) :
    maximumf (addf (Host.dotGeneral dot_S50000x512_S512x512_S50000x512_1_0_0_1_n_n none agg W)
        (broadcastInDim S50000x512 ![0, 1] bcast_S1x512_S50000x512_0_1 (broadcastInDim S1x512 ![1] bcast_S512_S1x512_1 β)))
      (broadcastInDim S50000x512 ![] bcast_S_S50000x512 (constant (F := Ideal) S_ .f32 0x00000000#32))
    = layer agg W β := by
  funext i
  obtain ⟨p, q, rfl⟩ : ∃ (p : Fin 50000) (q : Fin 512), i = ix2 p q := ⟨i 0, i 1, eq_ix2 i⟩
  rw [layer_apply]
  exact Cert.LibDense.host_dense_apply dot_S50000x512_S512x512_S50000x512_1_0_0_1_n_n
    dot_S50000x512_S512x512_S50000x512_1_0_0_1_n_n_wf product_plain agg W β
    bcast_S512_S1x512_1 bcast_S1x512_S50000x512_0_1 bcast_S_S50000x512 p q

end Cert.GraphLayer.Reference

end
-- ==== Proof.BlockLayer.lean ====
/-
  What one grid point stores, entry by entry.

  At a grid point the body holds 2000 nodes' aggregated rows `x`, the whole weight matrix `W` (already narrowed
  to the short float format outside the body) and the bias as one row `β`. It narrows `x` to the short format,
  multiplies into a zero accumulator, adds the bias row repeated down the 2000 rows and takes the maximum with a
  zero splat. On the extended reals a change of float format is the identity and `0 + s = s`, so the stored value
  at row `p`, column `q` is `max (Σ_e x (p, e) · W (e, q) + β (0, q)) 0`: the layer's formula on this block's rows.
-/
import proofs.«111110_j49108656062933_1_alg».proof.Proof.Gen.KernelIdeal.Skeleton
import proofs.«111110_j49108656062933_1_alg».proof.Proof.LibDense

noncomputable section

namespace Cert.GraphLayer.Block

open Cert.KernelIdeal Cert.KernelIdeal.Gen Idealize.ShloMosaic Idealize.ShloMosaic.ValueIdx

/-- The body's product record is the plain product of a [2000, 512] by a [512, 512] matrix. -/
theorem product_plain :
    dot_S2000x512_S512x512_S2000x512_1_0_0_1_n_n = Cert.LibRowMax.plainDims 2000 512 512 dot_S2000x512_S512x512_S2000x512_1_0_0_1_n_n_wf := rfl

/-- The stored value at `(p, q)`: the block's row `p` against the weight column `q`, plus the bias of `q`, clamped
    at zero. The narrowing of `x` and the body's identity reshapes drop out. -/
theorem stored_apply (x : Vec Ideal S2000x512 .f32) (W : Vec Ideal S512x512 .bf16) (β : Vec Ideal S1x512 .f32)
    (p : Fin 2000) (q : Fin 512) :
    k0_pay1 (F := Ideal) x W β (ix2 p q)
      = max (∑ e : Fin 512, (x (ix2 p e) : EReal) * (W (ix2 e q) : EReal) + (β (ix2 (0 : Fin 1) q) : EReal))
          (Ideal.ofBits .f32 0x00000000#32) := by
  unfold k0_pay1
  refine (Cert.LibDense.vector_dense_apply dot_S2000x512_S512x512_S2000x512_1_0_0_1_n_n dot_S2000x512_S512x512_S2000x512_1_0_0_1_n_n_wf product_plain
    (truncf .bf16 (shapeCast S2000x512 x shapeCasts_S2000x512_S2000x512) bitsLt_bf16_f32) W β
    shapeCasts_S512x512_S512x512 shapeCasts_S1x512_S1x512 broadcasts_S1x512_S2000x512 p q).trans ?_
  simp only [truncf, Ideal.truncf_def, shapeCast_self]

end Cert.GraphLayer.Block

end
-- ==== Proof.RowBlocks.lean ====
/-
  From row blocks to the whole array.

  The region visits 25 grid points. At point `t` it reads rows `2000 t … 2000 t + 1999` of the aggregate, the whole
  weight matrix and the whole bias row, and writes back rows `2000 t … 2000 t + 1999` of the result. Because the
  layer's entry `(r, q)` depends on row `r` of the aggregate only, what point `t` stores is exactly block `t` of
  the layer taken over the whole arrays (`flushed_eq`, at a symbolic point); the 25 blocks tile the 50000 rows
  (`covered`: row `r` is in block `r / 2000`); hence the result array ends holding the layer (`final`).
-/
import proofs.«111110_j49108656062933_1_alg».proof.Proof.Gen.KernelIdeal.Value
import proofs.«111110_j49108656062933_1_alg».proof.Proof.BlockLayer
import proofs.«111110_j49108656062933_1_alg».proof.Proof.Layer
import Idealize.ShloMosaic.Lib.Pipeline.Value
import Idealize.ShloMosaic.Lib.Tactic

noncomputable section

namespace Cert.GraphLayer.RowBlocks

open Cert.KernelIdeal Cert.KernelIdeal.Gen Idealize.ShloMosaic Idealize.ShloMosaic.TcCoe Idealize.SL.Sem
open Idealize.ShloMosaic.ValueIdx Cert.GraphLayer
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- Where each window's block sits at grid point `t`: the aggregate's and the result's blocks are row block `t`,
    the weight matrix and the bias row are taken whole at every point. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The layer of the three arrays the region finds. -/
abbrev found_layer (c : Dev nD) : S50000x512.Idx → EReal :=
  layer (V m c main_v12 : S50000x512.Idx → EReal) (V m c main_v13 : S512x512.Idx → EReal)
    (fun j => (V m c main_v14 : S1x512.Idx → EReal) (ix2 (0 : Fin 1) (j 0)))

/-- A block of 2000 rows whose row `p` is row `r` of the aggregate stores, at `(p, q)`, the layer's entry `(r, q)`. -/
theorem stored_is_layer (A : S50000x512.Idx → EReal) (W : S512x512.Idx → EReal) (B : S1x512.Idx → EReal)
    (x : Vec Ideal S2000x512 .f32) (w : Vec Ideal S512x512 .bf16) (b : Vec Ideal S1x512 .f32)
    (p : Fin 2000) (q : Fin 512) (r : Fin 50000)
    (hx : ∀ e : Fin 512, (x (ix2 p e) : EReal) = A (ix2 r e)) (hw : ∀ e : Fin 512, (w (ix2 e q) : EReal) = W (ix2 e q))
    (hb : (b (ix2 (0 : Fin 1) q) : EReal) = B (ix2 (0 : Fin 1) q)) :
    k0_pay1 (F := Ideal) x w b (ix2 p q) = layer A W (fun j => B (ix2 (0 : Fin 1) (j 0))) (ix2 r q) := by
  rw [Cert.GraphLayer.Block.stored_apply, layer_apply]
  simp only [hx, hw, hb]

/-- Row `p` of the aggregate's block at point `t` is row `2000 t + p` of the aggregate. -/
theorem rows_read (c : Dev nD) (t : Fin cfg0.N) (p : Fin 2000) (e : Fin 512) (r : Fin 50000)
    (hr : r.val = t.val * 2000 + p.val) :
    ((iblk m c 0 t : Vec Ideal S2000x512 .f32) (ix2 p e) : EReal) = (V m c main_v12 : S50000x512.Idx → EReal) (ix2 r e) := by
  obtain ⟨e00, e01, -⟩ := block_index t
  show (V m c main_v12 : S50000x512.Idx → EReal) (((cfg0.win 0).blk t).view.emb (ix2 p e)) = _
  refine congrArg (V m c main_v12 : S50000x512.Idx → EReal) ?_
  funext a
  apply Fin.ext
  match a with
  | ⟨0, _⟩ => show win0_0.index t (0 : Fin 2) * 2000 + 1 * p.val = r.val; rw [e00, hr]; omega
  | ⟨1, _⟩ => show win0_0.index t (1 : Fin 2) * 512 + 1 * e.val = e.val; rw [e01]; omega

/-- The weight block at every point is the whole weight array. -/
theorem weights_read (c : Dev nD) (t : Fin cfg0.N) (e q : Fin 512) :
    ((iblk m c 1 t : Vec Ideal S512x512 .bf16) (ix2 e q) : EReal) = (V m c main_v13 : S512x512.Idx → EReal) (ix2 e q) := by
  obtain ⟨-, -, e10, e11, -⟩ := block_index t
  show (V m c main_v13 : S512x512.Idx → EReal) (((cfg0.win 1).blk t).view.emb (ix2 e q)) = _
  refine congrArg (V m c main_v13 : S512x512.Idx → EReal) ?_
  funext a
  apply Fin.ext
  match a with
  | ⟨0, _⟩ => show win0_1.index t (0 : Fin 2) * 512 + 1 * e.val = e.val; rw [e10]; omega
  | ⟨1, _⟩ => show win0_1.index t (1 : Fin 2) * 512 + 1 * q.val = q.val; rw [e11]; omega

/-- The bias block at every point is the whole bias row. -/
theorem bias_read (c : Dev nD) (t : Fin cfg0.N) (q : Fin 512) :
    ((iblk m c 2 t : Vec Ideal S1x512 .f32) (ix2 (0 : Fin 1) q) : EReal) = (V m c main_v14 : S1x512.Idx → EReal) (ix2 (0 : Fin 1) q) := by
  obtain ⟨-, -, -, -, e20, e21, -⟩ := block_index t
  show (V m c main_v14 : S1x512.Idx → EReal) (((cfg0.win 2).blk t).view.emb (ix2 (0 : Fin 1) q)) = _
  refine congrArg (V m c main_v14 : S1x512.Idx → EReal) ?_
  funext a
  apply Fin.ext
  match a with
  | ⟨0, _⟩ => show win0_2.index t (0 : Fin 2) * 1 + 1 * 0 = 0; rw [e20]
  | ⟨1, _⟩ => show win0_2.index t (1 : Fin 2) * 512 + 1 * q.val = q.val; rw [e21]; omega

/-- What grid point `t` writes back is block `t` of the layer of the arrays the region finds. -/
theorem flushed_eq (c : Dev nD) (t : Fin cfg0.N) :
    (dats m 0 c).flushed 3 t = ((cfg0.win 3).blk t).view.read (Elt Ideal) (found_layer m c) := by
  rw [Cert.KernelIdeal.Value.flushed3]
  unfold out0_3
  rw [View.canon_unit_zero origin]
  simp only [View.ld_unit_zero (S := S2000x512) origin, View.ld_unit_zero (S := S512x512) origin,
    View.ld_unit_zero (S := S1x512) origin]
  have ht : t.val < 25 := lt_of_lt_of_eq t.isLt N_0
  obtain ⟨-, -, -, -, -, -, e30, e31⟩ := block_index t
  funext j
  obtain ⟨p, q, rfl⟩ : ∃ (p : Fin 2000) (q : Fin 512), j = ix2 p q := ⟨j 0, j 1, eq_ix2 j⟩
  show k0_pay1 (F := Ideal) (iblk m c 0 t) (iblk m c 1 t) (iblk m c 2 t) (ix2 p q)
    = found_layer m c (((cfg0.win 3).blk t).view.emb (ix2 p q))
  have hemb : ((cfg0.win 3).blk t).view.emb (ix2 p q)
      = ix2 (⟨t.val * 2000 + p.val, by have := p.isLt; omega⟩ : Fin 50000) q := by
    funext a
    apply Fin.ext
    match a with
    | ⟨0, _⟩ => show win0_3.index t (0 : Fin 2) * 2000 + 1 * p.val = t.val * 2000 + p.val; rw [e30]; omega
    | ⟨1, _⟩ => show win0_3.index t (1 : Fin 2) * 512 + 1 * q.val = q.val; rw [e31]; omega
  rw [hemb]
  exact stored_is_layer _ _ _ (iblk m c 0 t) (iblk m c 1 t) (iblk m c 2 t) p q _
    (fun e => rows_read m c t p e _ rfl) (fun e => weights_read m c t e q) (bias_read m c t q)

/-- An index of the result array is in point `t`'s block iff each coordinate is in the block's range on its axis. -/
theorem mem_block (t : Fin cfg0.N) (i : S50000x512.Idx) :
    i ∈ ((cfg0.win 3).blk t).view.set ↔ ∀ a : Fin 2, win0_3.index t a * S2000x512.size a ≤ (i a).val
      ∧ (i a).val < win0_3.index t a * S2000x512.size a + S2000x512.size a := by
  show i ∈ ((View.whole main_v15).slice (win0_3.rect t)).set ↔ _
  rw [View.set_slice_whole, Rect.mem_set_unit]
  exact Iff.rfl

/-- The 25 row blocks of 2000 rows tile the 50000 rows: row `r` lies in the block of point `r / 2000`. -/
theorem covered (i : S50000x512.Idx) :
    ∃ t : Fin cfg0.N, (cfg0.win 3).flush t = true ∧ i ∈ ((cfg0.win 3).blk t).view.set := by
  have hi0 : (i 0).val < 50000 := (i 0).isLt
  have hi1 : (i 1).val < 512 := (i 1).isLt
  obtain ⟨t, ht⟩ : ∃ t : Fin cfg0.N, t.val = (i 0).val / 2000 :=
    ⟨⟨(i 0).val / 2000, lt_of_lt_of_eq (by omega : (i 0).val / 2000 < 25) N_0.symm⟩, rfl⟩
  obtain ⟨-, -, -, -, -, -, e30, e31⟩ := block_index t
  refine ⟨t, flush0_3 t, ?_⟩
  rw [mem_block]
  intro a
  match a with
  | ⟨0, _⟩ =>
    show win0_3.index t (0 : Fin 2) * 2000 ≤ (i 0).val ∧ (i 0).val < win0_3.index t (0 : Fin 2) * 2000 + 2000
    rw [e30, ht]; omega
  | ⟨1, _⟩ =>
    show win0_3.index t (1 : Fin 2) * 512 ≤ (i 1).val ∧ (i 1).val < win0_3.index t (1 : Fin 2) * 512 + 512
    rw [e31]; omega

/-- So after the last grid point the result array is the layer of the arrays the region found. -/
theorem final (c : Dev nD) : (dats m 0 c).arrAt 3 cfg0.N = found_layer m c :=
  (dats m 0 c).arrAt_eq_of_cover 3 (found_layer m c) (fun t _ => flushed_eq m c t) covered

end Cert.GraphLayer.RowBlocks

end
-- ==== Proof.RegionEntry.lean ====
/-
  What the region finds in the three arrays it reads.

  Before the region the kernel's program does, on the host, exactly what the reference does first: it wraps
  negative column indices, gathers the neighbours' feature rows, scales each by its edge value and adds the scaled
  rows into their target nodes. So the first array the region reads is the SAME aggregate the reference forms —
  the same term of the four arguments, not merely an equal one; it is named here by the reference's own stage and
  never opened. The second array is the weight matrix narrowed to the short float format, which on the extended
  reals is the weight matrix. The third is the bias vector reshaped to one row, whose entry `(0, q)` is the bias
  of output feature `q`.
-/
import proofs.«111110_j49108656062933_1_alg».proof.Proof.Gen.KernelIdeal.Frame
import proofs.«111110_j49108656062933_1_alg».proof.Proof.Gen.ReferenceIdeal.Read
import Idealize.ShloMosaic.Lib.StableHlo.Run
import Idealize.ShloMosaic.Lib.ValueLayout

noncomputable section

namespace Cert.GraphLayer.Entry

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The aggregate of the four arguments (node features, edge targets, edge sources, edge values): for each node
    the sum, over the edges that end at it, of the edge value times the source node's feature row. Spelt as the
    reference's stage; both programs compute this very term. -/
abbrev aggregate (c : Dev nD) : S50000x512.Idx → EReal :=
  Cert.ReferenceIdeal.Read.val_main_v12 (F := Ideal) (m ((c : Thread nD τ).loc main_arg0))
    (m ((c : Thread nD τ).loc main_arg1)) (m ((c : Thread nD τ).loc main_arg2)) (m ((c : Thread nD τ).loc main_arg3))

/-- The first array the region reads is the aggregate. -/
theorem found_aggregate (c : Dev nD) : (V m c main_v12 : S50000x512.Idx → EReal) = aggregate m c := by
  dsimp only [Gen.V, Gen.hostOps0]
  after_results
  rfl

/-- The second is the weight matrix: narrowing the float format changes no extended real. -/
theorem found_weights (c : Dev nD) :
    (V m c main_v13 : S512x512.Idx → EReal) = m ((c : Thread nD τ).loc main_arg4) := by
  dsimp only [Gen.V, Gen.hostOps0]
  after_results
  rfl

/-- The third is the bias vector laid out as one row. -/
theorem found_bias_row (c : Dev nD) :
    (V m c main_v14 : S1x512.Idx → EReal)
      = shapeCast S1x512 (m ((c : Thread nD τ).loc main_arg5)) shapeCasts_S512_S1x512 := by
  dsimp only [Gen.V, Gen.hostOps0]
  after_results
  rfl

/-- Entry `(0, q)` of that row is the bias of output feature `q`. -/
theorem found_bias_apply (c : Dev nD) (q : Fin 512) :
    (V m c main_v14 : S1x512.Idx → EReal) (ix2 (0 : Fin 1) q)
      = (m ((c : Thread nD τ).loc main_arg5) : S512.Idx → EReal) (ix1 q) := by
  rw [found_bias_row]
  exact shapeCast_a_1a_apply _ shapeCasts_S512_S1x512 (0 : Fin 1) q

end Cert.GraphLayer.Entry

end
-- ==== Proof.KernelRun.lean ====
/-
  The kernel's run, read: its result array is the layer of the aggregate, the weight matrix and the bias vector.

  `RowBlocks.final` has the result array at the layer of the three arrays the region FOUND; `RegionEntry` says what
  those are in terms of the program's arguments — the aggregate, the weight matrix, and the bias vector as a row.
-/
import proofs.«111110_j49108656062933_1_alg».proof.Proof.RowBlocks
import proofs.«111110_j49108656062933_1_alg».proof.Proof.RegionEntry

noncomputable section

namespace Cert.GraphLayer.KernelRun

open Cert.KernelIdeal Cert.KernelIdeal.Gen Idealize.ShloMosaic Idealize.ShloMosaic.TcCoe Idealize.SL.Sem
open Idealize.ShloMosaic.ValueIdx Cert.GraphLayer Cert.GraphLayer.Entry Cert.GraphLayer.RowBlocks

variable (m : (ℓ : Loc nD τ sig) → Buf (Elt Ideal) ℓ) (ρ : Dev nD → PrngReg)

/-- The kernel's result, as a function of its arguments: the layer of the aggregate, the weights and the bias. -/
abbrev result (c : Dev nD) : S50000x512.Idx → EReal :=
  layer (aggregate m c) (m ((c : Thread nD τ).loc main_arg4)) (m ((c : Thread nD τ).loc main_arg5))

/-- The layer of what the region found is the layer of the arguments. -/
theorem found_layer_eq (c : Dev nD) : found_layer m c = result m c := by
  have hb : (fun j : S512.Idx => (V m c main_v14 : S1x512.Idx → EReal) (ix2 (0 : Fin 1) (j 0)))
      = (m ((c : Thread nD τ).loc main_arg5) : S512.Idx → EReal) :=
    funext fun j => (found_bias_apply m c (j 0)).trans (congrArg _ (eq_ix1 j).symm)
  show layer _ _ _ = layer _ _ _
  rw [found_aggregate, found_weights, hb]

/-- Every weakly fair execution of the kernel's program ends with the result array at `result` and the arguments
    unchanged. -/
theorem run : θ_run defs (onTc (τ := τ) (main (F := Ideal))) ⟨m, fun _ => 0, ρ⟩ fun r => ∀ c : Dev nD,
      r.2.mem ((c : Thread nD τ).loc main_v15) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans ((final m c).trans (found_layer_eq m c)), (h c).2⟩)
    (Cert.KernelIdeal.Value.run_blocks m ρ)

end Cert.GraphLayer.KernelRun

end
-- ==== Proof.lean ====
/-
  A graph convolution layer computed two ways, equal on the extended reals.

  Both programs first aggregate, for every node, the feature rows of the nodes its incoming edges start at, each
  scaled by its edge value; they do it with the same operations in the same order, so the aggregate is one and the
  same term of the arguments on both sides. The reference then multiplies the whole [50000, 512] aggregate by the
  [512, 512] weight matrix, adds the bias and clamps at zero. The kernel does that for 2000 nodes at a time, on
  operands narrowed to a short float format and with the product accumulated from zero.

  On the extended reals narrowing the format is the identity and `0 + s = s`, and the layer's entry `(r, q)`,

      max (Σ_e agg (r, e) · W (e, q) + β q) 0,

  depends on row `r` of the aggregate alone; so each of the kernel's 25 row blocks is the corresponding block of the
  whole layer, the blocks tile the array, and both programs end with the same array. No sum is rearranged and
  nothing is cancelled, so the inputs' finiteness is never used.

  The modules: `Layer` (the function), `ReferenceLayer` (the reference's closing operations are it), `BlockLayer`
  (what one grid point stores), `RegionEntry` (the arrays the region reads, in terms of the arguments), `RowBlocks`
  (blocks to the whole array), `KernelRun` (the kernel's run, read). The kernel was not rewritten by the
  idealization, so there is nothing to preserve.
-/
import proofs.«111110_j49108656062933_1_alg».proof.Defs
import proofs.«111110_j49108656062933_1_alg».proof.Proof.Gen.Kernel
import proofs.«111110_j49108656062933_1_alg».proof.Proof.Gen.Kernel.Skeleton
import proofs.«111110_j49108656062933_1_alg».proof.Proof.Gen.Kernel.Launch
import proofs.«111110_j49108656062933_1_alg».proof.Proof.Gen.Kernel.Points
import proofs.«111110_j49108656062933_1_alg».proof.Proof.Gen.Kernel.Frame
import proofs.«111110_j49108656062933_1_alg».proof.Proof.Gen.KernelIdeal
import proofs.«111110_j49108656062933_1_alg».proof.Proof.Gen.KernelIdeal.Skeleton
import proofs.«111110_j49108656062933_1_alg».proof.Proof.Gen.KernelIdeal.Launch
import proofs.«111110_j49108656062933_1_alg».proof.Proof.Gen.KernelIdeal.Points
import proofs.«111110_j49108656062933_1_alg».proof.Proof.Gen.KernelIdeal.Frame
import proofs.«111110_j49108656062933_1_alg».proof.Proof.Gen.ReferenceIdeal
import proofs.«111110_j49108656062933_1_alg».proof.Proof.Gen.Pre_finite_inputs
import proofs.«111110_j49108656062933_1_alg».proof.Proof.Gen.KernelIdeal.Value
import proofs.«111110_j49108656062933_1_alg».proof.Proof.Gen.ReferenceIdeal.Run
import proofs.«111110_j49108656062933_1_alg».proof.Proof.Gen.ReferenceIdeal.Read
import proofs.«111110_j49108656062933_1_alg».proof.Proof.ReferenceLayer
import proofs.«111110_j49108656062933_1_alg».proof.Proof.KernelRun
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- So does the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree, the kernel's result array ends at the layer of the aggregate, the weights and the
    bias, and the reference's at its whole product plus bias clamped at zero of the same aggregate: one function. -/
theorem algebraic : Cert.algebraic_KernelIdeal_ReferenceIdeal := by
  intro m ρ m' ρ' _ hagree
  refine ⟨fun c => Cert.GraphLayer.KernelRun.result m c, Cert.GraphLayer.KernelRun.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [h0, h1, h2, h3, h4, h5]
  exact Cert.GraphLayer.Reference.closing_ops_eq_layer _ _ _

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
